-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S_ : Shape := ⟨0, ![]⟩
abbrev S10000 : Shape := ⟨1, ![10000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  reducesTo_S10000x10000_S10000_d1 : S10000x10000.ReducesTo [1] S10000
  bcast_S_S10000 : S_.BroadcastsInDim S10000 (![] : Fin 0 → Fin S10000.rank)
  reducesTo_S10000_S_d0 : S10000.ReducesTo [0] S_

variable [Facts]

def fn_part1 {F : FTy → Type} [FloatOps F] (main_v13 : IVec S_ 1) (main_v14 : FVec F S10000 .f32) (main_v15 : FVec F S10000 .f32) : IVec S_ 1 :=
  let main_v16 : FVec F S10000 .f32 := addf main_v14 main_v15
  let main_cst_6 : FVec F S_ .f32 := constant S_ .f32 0x00000000#32
  let main_v17 : FVec F S10000 .f32 := broadcastInDim S10000 ![] bcast_S_S10000 main_cst_6
  let main_v18 : IVec S10000 1 := cmpf .une main_v16 main_v17
  let main_c_7 : IVec S_ 1 := constantI S_ 1 1#1
  let main_v19 : IVec S_ 1 := (fun x v => Host.reduce IntOp.andi x v reducesTo_S10000_S_d0 h_S_) main_v18 main_c_7
  let main_v20 : IVec S_ 1 := andi main_v13 main_v19
  main_v20

def fn {F : FTy → Type} [FloatOps F] (main_arg0 : FVec F S10000x128 .f32) (main_arg1 : FVec F S10000x10000 .f32) (main_arg2 : FVec F S128x256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_cst_4 : FVec F S_ .f32 := constant S_ .f32 0x00000000#32
  let main_v14 : FVec F S10000 .f32 := (fun x v => Host.reduceAdd x v reducesTo_S10000x10000_S10000_d1 h_S_) main_arg1 main_cst_4
  let main_cst_5 : FVec F S_ .f32 := constant S_ .f32 0x3F800000#32
  let main_v15 : FVec F S10000 .f32 := broadcastInDim S10000 ![] bcast_S_S10000 main_cst_5
  fn_part1 (F := F) main_v13 main_v14 main_v15
-- ==== Kernel.lean ====
abbrev S10000x128 : Shape := ⟨2, ![10000, 128]⟩
abbrev S10000x10000 : Shape := ⟨2, ![10000, 10000]⟩
abbrev S128x256 : Shape := ⟨2, ![128, 256]⟩
abbrev S128x128 : Shape := ⟨2, ![128, 128]⟩
abbrev S400x128 : Shape := ⟨2, ![400, 128]⟩
abbrev S200x10000 : Shape := ⟨2, ![200, 10000]⟩
abbrev S200 : Shape := ⟨1, ![200]⟩
abbrev S200x1 : Shape := ⟨2, ![200, 1]⟩
abbrev S200x128 : Shape := ⟨2, ![200, 128]⟩

abbrev nBuf : Space → Nat
  | .hbm => 8
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S10000x128, .f32⟩
  | .local _ .vmem, ⟨7, _⟩ => ⟨S128x128, .f32⟩
  | .local _ .vmem, ⟨8, _⟩ => ⟨S128x128, .f32⟩
  | .local _ .vmem, ⟨9, _⟩ => ⟨S400x128, .f32⟩
  | .local _ .vmem, ⟨10, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S200x10000_S200x10000_0_0 : ∀ a, (![0, 0] : Fin 2 → Nat) a + S200x10000.size a ≤ S200x10000.size a
  h_S200x10000 : 0 < S200x10000.numel
  reduces_S200x10000_S200 : S200x10000.Reduces [1] S200
  shapeCasts_S200_S200x1 : S200.ShapeCasts S200x1
  inb_S400x128_S200x128_0_0 : ∀ a, (![0, 0] : Fin 2 → Nat) a + S200x128.size a ≤ S400x128.size a
  h_S200x128 : 0 < S200x128.numel
  broadcasts_S200x1_S200x128 : S200x1.Broadcasts S200x128
  inb_S400x128_S200x128_200_0 : ∀ a, (![200, 0] : Fin 2 → Nat) a + S200x128.size a ≤ S400x128.size a
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S10000x128.size a
  hwx0_3 : ∀ i : grid0.Coords, EltTy.bits .f32 = 32 ∨ (Rect.block (s := S10000x128) S10000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S10000x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S256x128 : Shape := ⟨2, ![256, 128]⟩

abbrev nBuf : Space → Nat
  | .hbm => 15
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S10000x128, .f32⟩
  | .hbm, ⟨4, _⟩ => ⟨S_, .f32⟩
  | .hbm, ⟨5, _⟩ => ⟨S10000, .f32⟩
  | .hbm, ⟨6, _⟩ => ⟨S10000x1, .f32⟩
  | .hbm, ⟨7, _⟩ => ⟨S_, .f32⟩
  | .hbm, ⟨8, _⟩ => ⟨S10000x1, .f32⟩
  | .hbm, ⟨9, _⟩ => ⟨S10000x1, .f32⟩
  | .hbm, ⟨10, _⟩ => ⟨S10000x128, .f32⟩
  | .hbm, ⟨11, _⟩ => ⟨S10000x128, .f32⟩
  | .hbm, ⟨12, _⟩ => ⟨S10000x256, .f32⟩
  | .hbm, ⟨13, _⟩ => ⟨S256x128, .f32⟩
  | .hbm, ⟨14, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  shapeCasts_S10000_S10000x1 : S10000.ShapeCasts S10000x1
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.FrameEntryK.lean ====
/-
  The region's entry: the four host operations before it (two column halves of the weight matrix, each transposed)
  write only their own result buffers, so the three argument arrays are found as launched; each window's block at a
  grid point is read off its array as found there; and an input window's staging buffer holds that block at every
  point, whether the point fetches it or the index has not moved since the last fetch.
-/
import proofs.«174640_g81527069213077_cont_9to1c4b_579_20_alg».proof.Proof.Gen.Kernel.Launch
import proofs.«174640_g81527069213077_cont_9to1c4b_579_20_alg».proof.Proof.Gen.Kernel.Skeleton
import proofs.«174640_g81527069213077_cont_9to1c4b_579_20_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffers when the region is entered: after the host operations before it. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program up to the region: the line of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.Kernel.Fr

end
-- ==== Proof.FrameBodyK.lean ====
/-
  One grid point of the kernel: from the seven staging buffers — a 400-row block of the features, two 200-row stripes
  of the adjacency matrix, the whole feature matrix, the two transposed halves of the weight matrix, and the output
  block — the body stores the top 200 rows of the output block from the first stripe and the bottom 200 rows from the
  second, and leaves every input buffer as it found it. The output block after the body is the overlay of those two
  stores, which tile it.
-/
import proofs.«174640_g81527069213077_cont_9to1c4b_579_20_alg».proof.Proof.Gen.Kernel.Launch
import proofs.«174640_g81527069213077_cont_9to1c4b_579_20_alg».proof.Proof.Gen.Kernel.Skeleton
import proofs.«174640_g81527069213077_cont_9to1c4b_579_20_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev rFeat : Rect S10000x128 := Rect.unit (s := S10000x128) ![0, 0] S10000x128.size inb_S10000x128_S10000x128_0_0
abbrev rW : Rect S128x128 := Rect.unit (s := S128x128) ![0, 0] S128x128.size inb_S128x128_S128x128_0_0
abbrev rAdj : Rect S200x10000 := Rect.unit (s := S200x10000) ![0, 0] S200x10000.size inb_S200x10000_S200x10000_0_0
abbrev rTop : Rect S400x128 := Rect.unit (s := S400x128) ![0, 0] S200x128.size inb_S400x128_S200x128_0_0
abbrev rBot : Rect S400x128 := Rect.unit (s := S400x128) ![200, 0] S200x128.size inb_S400x128_S200x128_200_0

/-- The top half of the output block: the first stripe's rows. -/
def topPay (x0 : Vec F S400x128 .f32) (x1 : Vec F S200x10000 .f32) (x3 : Vec F S10000x128 .f32) (x4 x5 : Vec F S128x128 .f32) : FVec F S200x128 .f32 :=
  k0_pay4 (View.ld x3 rFeat) (View.ld x4 rW) (View.ld x5 rW) (View.ld x1 rAdj) (View.ld x0 rTop)

/-- The bottom half of the output block: the second stripe's rows. -/
def botPay (x0 : Vec F S400x128 .f32) (x2 : Vec F S200x10000 .f32) (x3 : Vec F S10000x128 .f32) (x4 x5 : Vec F S128x128 .f32) : FVec F S200x128 .f32 :=
  k0_pay1 (k0_pay3 (View.ld x5 rW)) (k0_pay5 (View.ld x3 rFeat) (View.ld x2 rAdj)) (k0_pay6 (View.ld x4 rW) (View.ld x0 rBot)) (k0_pay7 (View.ld x2 rAdj))

/-- The output block after the body: its two stores as pieces, the later one first. -/
def out0_6 (x0 : Vec F S400x128 .f32) (x1 x2 : Vec F S200x10000 .f32) (x3 : Vec F S10000x128 .f32) (x4 x5 : Vec F S128x128 .f32) : Vec F S400x128 .f32 :=
  View.canon [⟨rBot, botPay x0 x2 x3 x4 x5⟩, ⟨rTop, topPay x0 x1 x3 x4 x5⟩]

/-- The two stores tile the block, so they cover it. -/
theorem cover0_6 (p0 p1 : Vec F S200x128 .f32) (y : S400x128.Idx) :
    ∃ pc ∈ ([⟨rBot, p0⟩, ⟨rTop, p1⟩] : List (View.Piece (Elt F) S400x128 .f32)), y ∈ pc.1.set :=
  View.cover_of_tiled [⟨rBot, p0⟩, ⟨rTop, p1⟩] S200x128.size (by rfl) y

/-! ## The body's triple -/

set_option maxHeartbeats 4000000 in
/-- The body on whole staging memrefs, the inputs' at read contents and the output's at anything, runs to the
    continuation holding the inputs' as they were and the output's at `out0_6` of the inputs'. -/
theorem sound_kernel (c : Dev nD) (E : Set ℕ) (i : grid0.Coords)
    (arg1 : Memref sig .tc .vmem S400x128 .f32) (harg1 : arg1.IsWhole) (arg2 : Memref sig .tc .vmem S200x10000 .f32) (harg2 : arg2.IsWhole)
    (arg3 : Memref sig .tc .vmem S200x10000 .f32) (harg3 : arg3.IsWhole) (arg4 : Memref sig .tc .vmem S10000x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S400x128 .f32) (harg7 : arg7.IsWhole)
    (x0 : Vec F S400x128 .f32) (x1 x2 : Vec F S200x10000 .f32) (x3 : Vec F S10000x128 .f32) (x4 x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__sage_kernel i arg1 harg1 arg2 harg2 arg3 harg3 arg4 harg4 arg5 harg5 arg6 harg6 arg7 harg7) K := by
  simp only [cc0__sage_kernel_eq_skeleton]; unfold cc0__sage_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _ _)

end Cert.Kernel.Fr

end
-- ==== Proof.FrameRunK.lean ====
/-
  The run of the whole program. The pipeline's proof data: every array as the region finds it; after the body each
  input buffer still at its block and the output buffer at the overlay of the body's two stores. The feature matrix is
  handed to the pipeline through two windows (a 400-row block per point, and the whole matrix once) and so is the
  adjacency matrix (the even and the odd 200-row stripe): each of the two arrays is split into two half shares, one per
  window — both windows only read. The launch then gives: every execution terminates without a fault, each array ends at
  what the write-backs make of it, and every other buffer ends as the region found it.
-/
import proofs.«174640_g81527069213077_cont_9to1c4b_579_20_alg».proof.Proof.FrameEntryK
import proofs.«174640_g81527069213077_cont_9to1c4b_579_20_alg».proof.Proof.FrameBodyK

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.left
    | ⟨2, _⟩ => fullShare.right
    | ⟨3, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem Φ_eq (c : Dev nD) (t : Fin (cfg0.N + 1)) : (dats m 0 c).Φ t
    = Pipeline.scopedRest (Ix := Unit) (Name := ℕ) (U := UR sig nD τ) (Lvl := ℕ) (Val := Elt F) spec0 c := rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The arrays at entry, split among the windows -/

theorem arrRefs_eq : (Finset.univ.image (Pipeline.arrRef spec0) : Finset (Ref sig .tc))
    = [main_arg0, main_arg1, main_call0_v1, main_call0_v3, main_v0].toFinset := by decide

theorem arr_term (c : Dev nD) (w : Fin cfg0.W) (q : PosShare TreeShare) (hq : (dats m 0 c).share w = q) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{q} V m c (Pipeline.arrRef spec0 w)) := by
  rw [(arr_whole0 w).set_eq_univ, hq]; rfl

/-- The buffers behind the windows' arrays, each whole, make the windows' arrays at their shares: the two arrays that
    two input windows read are halved. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_call0_v1) ↦{fullShare} V main_call0_v1) ∗ (((c : Thread nD τ).loc main_call0_v3) ↦{fullShare} V main_call0_v3)
          ∗ (((c : Thread nD τ).loc main_v0) ↦{fullShare} V main_v0)) :=
  bigSep_eq_bigSepL_of_eq [main_arg0, main_arg1, main_call0_v1, main_call0_v3, main_v0] arrRefs_eq (by decide) _

theorem hsplit (c : Dev nD) : (Pipeline.arrBufs spec0 c (V m c) : sProp 𝕄) ⊢ (dats m 0 c).arrays ((dats m 0 c).arrAt · 0) := by
  rw [arrBufs0_eq]
  unfold Dat.arrays
  rw [bigSep_W0]
  rw [arr_term m c 0 fullShare.left rfl, arr_term m c 1 fullShare.left rfl, arr_term m c 2 fullShare.right rfl,
    arr_term m c 3 fullShare.right rfl, arr_term m c 4 fullShare rfl, arr_term m c 5 fullShare rfl, arr_term m c 6 fullShare rfl]
  iintro ⟨H0, H1, H4, H5, H6⟩
  ihave H0 := (pointsTo_share (PosShare.mem_left_op_right fullShare)).1 $$ H0
  icases H0 with ⟨H0a, H0b⟩
  ihave H1 := (pointsTo_share (PosShare.mem_left_op_right fullShare)).1 $$ H1
  icases H1 with ⟨H1a, H1b⟩
  isplitl [H0a]; · iexact H0a
  isplitl [H1a]; · iexact H1a
  isplitl [H1b]; · iexact H1b
  isplitl [H0b]; · iexact H0b
  isplitl [H4]; · iexact H4
  isplitl [H5]; · iexact H5
  iexact H6

/-! ## The run and the frame -/

/-- What the run ends in: every array of the pipeline at what the write-backs make of it, every other unscoped
    buffer as the region found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [Φ_eq]; iintro ⟨-, H⟩; iexact H)
    (hout := fun c => by rw [Φ_eq]; iintro H; isplitr [H]; · iempintro
                         iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The frame: the program runs to the end without a fault and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (V_main_arg2 m c)⟩) (run_main m ρ)

end Cert.Kernel.Fr

end
-- ==== Proof.FrameEntryI.lean ====
/-
  The region's entry: the four host operations before it (two column halves of the weight matrix, each transposed)
  write only their own result buffers, so the three argument arrays are found as launched; each window's block at a
  grid point is read off its array as found there; and an input window's staging buffer holds that block at every
  point, whether the point fetches it or the index has not moved since the last fetch.
-/
import proofs.«174640_g81527069213077_cont_9to1c4b_579_20_alg».proof.Proof.Gen.KernelIdeal.Launch
import proofs.«174640_g81527069213077_cont_9to1c4b_579_20_alg».proof.Proof.Gen.KernelIdeal.Skeleton
import proofs.«174640_g81527069213077_cont_9to1c4b_579_20_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffers when the region is entered: after the host operations before it. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program up to the region: the line of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Fr

end
-- ==== Proof.FrameBodyI.lean ====
/-
  One grid point of the kernel: from the seven staging buffers — a 400-row block of the features, two 200-row stripes
  of the adjacency matrix, the whole feature matrix, the two transposed halves of the weight matrix, and the output
  block — the body stores the top 200 rows of the output block from the first stripe and the bottom 200 rows from the
  second, and leaves every input buffer as it found it. The output block after the body is the overlay of those two
  stores, which tile it.
-/
import proofs.«174640_g81527069213077_cont_9to1c4b_579_20_alg».proof.Proof.Gen.KernelIdeal.Launch
import proofs.«174640_g81527069213077_cont_9to1c4b_579_20_alg».proof.Proof.Gen.KernelIdeal.Skeleton
import proofs.«174640_g81527069213077_cont_9to1c4b_579_20_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev rFeat : Rect S10000x128 := Rect.unit (s := S10000x128) ![0, 0] S10000x128.size inb_S10000x128_S10000x128_0_0
abbrev rW : Rect S128x128 := Rect.unit (s := S128x128) ![0, 0] S128x128.size inb_S128x128_S128x128_0_0
abbrev rAdj : Rect S200x10000 := Rect.unit (s := S200x10000) ![0, 0] S200x10000.size inb_S200x10000_S200x10000_0_0
abbrev rTop : Rect S400x128 := Rect.unit (s := S400x128) ![0, 0] S200x128.size inb_S400x128_S200x128_0_0
abbrev rBot : Rect S400x128 := Rect.unit (s := S400x128) ![200, 0] S200x128.size inb_S400x128_S200x128_200_0

/-- The top half of the output block: the first stripe's rows. -/
def topPay (x0 : Vec F S400x128 .f32) (x1 : Vec F S200x10000 .f32) (x3 : Vec F S10000x128 .f32) (x4 x5 : Vec F S128x128 .f32) : FVec F S200x128 .f32 :=
  k0_pay4 (View.ld x3 rFeat) (View.ld x4 rW) (View.ld x5 rW) (View.ld x1 rAdj) (View.ld x0 rTop)

/-- The bottom half of the output block: the second stripe's rows. -/
def botPay (x0 : Vec F S400x128 .f32) (x2 : Vec F S200x10000 .f32) (x3 : Vec F S10000x128 .f32) (x4 x5 : Vec F S128x128 .f32) : FVec F S200x128 .f32 :=
  k0_pay1 (k0_pay3 (View.ld x5 rW)) (k0_pay5 (View.ld x3 rFeat) (View.ld x2 rAdj)) (k0_pay6 (View.ld x4 rW) (View.ld x0 rBot)) (k0_pay7 (View.ld x2 rAdj))

/-- The output block after the body: its two stores as pieces, the later one first. -/
def out0_6 (x0 : Vec F S400x128 .f32) (x1 x2 : Vec F S200x10000 .f32) (x3 : Vec F S10000x128 .f32) (x4 x5 : Vec F S128x128 .f32) : Vec F S400x128 .f32 :=
  View.canon [⟨rBot, botPay x0 x2 x3 x4 x5⟩, ⟨rTop, topPay x0 x1 x3 x4 x5⟩]

/-- The two stores tile the block, so they cover it. -/
theorem cover0_6 (p0 p1 : Vec F S200x128 .f32) (y : S400x128.Idx) :
    ∃ pc ∈ ([⟨rBot, p0⟩, ⟨rTop, p1⟩] : List (View.Piece (Elt F) S400x128 .f32)), y ∈ pc.1.set :=
  View.cover_of_tiled [⟨rBot, p0⟩, ⟨rTop, p1⟩] S200x128.size (by rfl) y

/-! ## The body's triple -/

set_option maxHeartbeats 4000000 in
/-- The body on whole staging memrefs, the inputs' at read contents and the output's at anything, runs to the
    continuation holding the inputs' as they were and the output's at `out0_6` of the inputs'. -/
theorem sound_kernel (c : Dev nD) (E : Set ℕ) (i : grid0.Coords)
    (arg1 : Memref sig .tc .vmem S400x128 .f32) (harg1 : arg1.IsWhole) (arg2 : Memref sig .tc .vmem S200x10000 .f32) (harg2 : arg2.IsWhole)
    (arg3 : Memref sig .tc .vmem S200x10000 .f32) (harg3 : arg3.IsWhole) (arg4 : Memref sig .tc .vmem S10000x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S400x128 .f32) (harg7 : arg7.IsWhole)
    (x0 : Vec F S400x128 .f32) (x1 x2 : Vec F S200x10000 .f32) (x3 : Vec F S10000x128 .f32) (x4 x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__sage_kernel i arg1 harg1 arg2 harg2 arg3 harg3 arg4 harg4 arg5 harg5 arg6 harg6 arg7 harg7) K := by
  simp only [cc0__sage_kernel_eq_skeleton]; unfold cc0__sage_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _ _)

end Cert.KernelIdeal.Fr

end
-- ==== Proof.FrameRunI.lean ====
/-
  The run of the whole program. The pipeline's proof data: every array as the region finds it; after the body each
  input buffer still at its block and the output buffer at the overlay of the body's two stores. The feature matrix is
  handed to the pipeline through two windows (a 400-row block per point, and the whole matrix once) and so is the
  adjacency matrix (the even and the odd 200-row stripe): each of the two arrays is split into two half shares, one per
  window — both windows only read. The launch then gives: every execution terminates without a fault, each array ends at
  what the write-backs make of it, and every other buffer ends as the region found it.
-/
import proofs.«174640_g81527069213077_cont_9to1c4b_579_20_alg».proof.Proof.FrameEntryI
import proofs.«174640_g81527069213077_cont_9to1c4b_579_20_alg».proof.Proof.FrameBodyI

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.left
    | ⟨2, _⟩ => fullShare.right
    | ⟨3, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem Φ_eq (c : Dev nD) (t : Fin (cfg0.N + 1)) : (dats m 0 c).Φ t
    = Pipeline.scopedRest (Ix := Unit) (Name := ℕ) (U := UR sig nD τ) (Lvl := ℕ) (Val := Elt F) spec0 c := rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The arrays at entry, split among the windows -/

theorem arrRefs_eq : (Finset.univ.image (Pipeline.arrRef spec0) : Finset (Ref sig .tc))
    = [main_arg0, main_arg1, main_call0_v1, main_call0_v3, main_v0].toFinset := by decide

theorem arr_term (c : Dev nD) (w : Fin cfg0.W) (q : PosShare TreeShare) (hq : (dats m 0 c).share w = q) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{q} V m c (Pipeline.arrRef spec0 w)) := by
  rw [(arr_whole0 w).set_eq_univ, hq]; rfl

/-- The buffers behind the windows' arrays, each whole, make the windows' arrays at their shares: the two arrays that
    two input windows read are halved. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_call0_v1) ↦{fullShare} V main_call0_v1) ∗ (((c : Thread nD τ).loc main_call0_v3) ↦{fullShare} V main_call0_v3)
          ∗ (((c : Thread nD τ).loc main_v0) ↦{fullShare} V main_v0)) :=
  bigSep_eq_bigSepL_of_eq [main_arg0, main_arg1, main_call0_v1, main_call0_v3, main_v0] arrRefs_eq (by decide) _

theorem hsplit (c : Dev nD) : (Pipeline.arrBufs spec0 c (V m c) : sProp 𝕄) ⊢ (dats m 0 c).arrays ((dats m 0 c).arrAt · 0) := by
  rw [arrBufs0_eq]
  unfold Dat.arrays
  rw [bigSep_W0]
  rw [arr_term m c 0 fullShare.left rfl, arr_term m c 1 fullShare.left rfl, arr_term m c 2 fullShare.right rfl,
    arr_term m c 3 fullShare.right rfl, arr_term m c 4 fullShare rfl, arr_term m c 5 fullShare rfl, arr_term m c 6 fullShare rfl]
  iintro ⟨H0, H1, H4, H5, H6⟩
  ihave H0 := (pointsTo_share (PosShare.mem_left_op_right fullShare)).1 $$ H0
  icases H0 with ⟨H0a, H0b⟩
  ihave H1 := (pointsTo_share (PosShare.mem_left_op_right fullShare)).1 $$ H1
  icases H1 with ⟨H1a, H1b⟩
  isplitl [H0a]; · iexact H0a
  isplitl [H1a]; · iexact H1a
  isplitl [H1b]; · iexact H1b
  isplitl [H0b]; · iexact H0b
  isplitl [H4]; · iexact H4
  isplitl [H5]; · iexact H5
  iexact H6

/-! ## The run and the frame -/

/-- What the run ends in: every array of the pipeline at what the write-backs make of it, every other unscoped
    buffer as the region found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [Φ_eq]; iintro ⟨-, H⟩; iexact H)
    (hout := fun c => by rw [Φ_eq]; iintro H; isplitr [H]; · iempintro
                         iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The frame: the program runs to the end without a fault and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (V_main_arg2 m c)⟩) (run_main m ρ)

end Cert.KernelIdeal.Fr

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.LibKeepdims.lean ====
/-
  The two layout steps of a sum that keeps its axis (`jnp.sum(…, axis=1, keepdims=True)`), read at an index:
  a vector of row statistics `[a]` cast to a column `[a, 1]`, and that column broadcast along the rows to
  `[a, b]`. In row-major order the entry (i, 0) of an `[a, 1]` array is entry i of the `[a]` array, and a
  broadcast reads the operand's unit axis at 0 and its full axis at the result's coordinate. General in the
  extents; they complement the leading-unit-axis casts and the row broadcast `[1, b] → [a, b]` of the library.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.PayloadValue.lean ====
/-
  The body's arithmetic for one 200-row stripe, read at an entry, on the extended reals.

  Given the stripe `a` of the adjacency matrix (200 rows), the matching 200 rows `f` of the features, the whole feature
  matrix `v0` and the two weight blocks, the stored value at `(p, q)` is
    ∑ k, f p k · w₁ k q  +  ∑ k, ((∑ j, a p j · v0 j k) · (1 / (∑ j, a p j + 1))) · w₂ k q:
  two products into zero accumulators, a row sum kept as a column, its reciprocal broadcast along the row. The two
  halves of the body spell this same value through different intermediate names.
-/
import proofs.«174640_g81527069213077_cont_9to1c4b_579_20_alg».proof.Proof.Gen.KernelIdeal.Skeleton
import proofs.«174640_g81527069213077_cont_9to1c4b_579_20_alg».proof.Proof.LibDense
import proofs.«174640_g81527069213077_cont_9to1c4b_579_20_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Pay

open Idealize.ShloMosaic Idealize.ShloMosaic.ValueIdx Cert.KernelIdeal Cert.KernelIdeal.Gen

/-- The stripe-by-features product's dimension record, and the rows-by-weights one. -/
abbrev DAgg := dot_S200x10000_S10000x128_S200x128_1_0_0_1_n_n
abbrev DProj := dot_S200x128_S128x128_S200x128_1_0_0_1_n_n

theorem agg_l0 (i : S200x128.Idx) (q : DAgg.contr.Idx) : (DAgg.lhsIdx i q 0).val = (i 0).val := by
  unfold DotDims.lhsIdx
  rw [dif_neg (show ¬(0 : Fin S200x10000.rank) ∈ DAgg.lhsBatch by decide), dif_pos (show (0 : Fin S200x10000.rank) ∈ DAgg.lhsNonContracting by decide)]
  rfl
theorem agg_l1 (i : S200x128.Idx) (q : DAgg.contr.Idx) : (DAgg.lhsIdx i q 1).val = (q ⟨0, by decide⟩).val :=
  DAgg.lhsIdx_val_of_single rfl i q
theorem agg_r0 (i : S200x128.Idx) (q : DAgg.contr.Idx) : (DAgg.rhsIdx i q 0).val = (q ⟨0, by decide⟩).val :=
  DAgg.rhsIdx_val_of_single rfl i q
theorem agg_r1 (i : S200x128.Idx) (q : DAgg.contr.Idx) : (DAgg.rhsIdx i q 1).val = (i 1).val := by
  unfold DotDims.rhsIdx
  rw [dif_neg (show ¬(1 : Fin S10000x128.rank) ∈ DAgg.rhsBatch by decide), dif_pos (show (1 : Fin S10000x128.rank) ∈ DAgg.rhsNonContracting by decide)]
  rfl

theorem proj_l0 (i : S200x128.Idx) (q : DProj.contr.Idx) : (DProj.lhsIdx i q 0).val = (i 0).val := by
  unfold DotDims.lhsIdx
  rw [dif_neg (show ¬(0 : Fin S200x128.rank) ∈ DProj.lhsBatch by decide), dif_pos (show (0 : Fin S200x128.rank) ∈ DProj.lhsNonContracting by decide)]
  rfl
theorem proj_l1 (i : S200x128.Idx) (q : DProj.contr.Idx) : (DProj.lhsIdx i q 1).val = (q ⟨0, by decide⟩).val :=
  DProj.lhsIdx_val_of_single rfl i q
theorem proj_r0 (i : S200x128.Idx) (q : DProj.contr.Idx) : (DProj.rhsIdx i q 0).val = (q ⟨0, by decide⟩).val :=
  DProj.rhsIdx_val_of_single rfl i q
theorem proj_r1 (i : S200x128.Idx) (q : DProj.contr.Idx) : (DProj.rhsIdx i q 1).val = (i 1).val := by
  unfold DotDims.rhsIdx
  rw [dif_neg (show ¬(1 : Fin S128x128.rank) ∈ DProj.rhsBatch by decide), dif_pos (show (1 : Fin S128x128.rank) ∈ DProj.rhsNonContracting by decide)]
  rfl

/-- The stripe against the features, into a zero accumulator: entry `(p, k)`. -/
theorem aggProd_apply (a : FVec Ideal S200x10000 .f32) (v0 : FVec Ideal S10000x128 .f32) (p : Fin 200) (k : Fin 128) :
    matmul DAgg none a v0 (constant (F := Ideal) S200x128 .f32 0x00000000#32) (ix2 p k) = ∑ j : Fin 10000, a (ix2 p j) * v0 (ix2 j k) :=
  Cert.LibDense.matmul_zero_plain DAgg none rfl rfl agg_l0 agg_l1 agg_r0 agg_r1 a v0 p k

/-- 200 rows against a weight block, into a zero accumulator: entry `(p, q)`. -/
theorem projProd_apply (x : FVec Ideal S200x128 .f32) (w : FVec Ideal S128x128 .f32) (p : Fin 200) (q : Fin 128) :
    matmul DProj none x w (constant (F := Ideal) S200x128 .f32 0x00000000#32) (ix2 p q) = ∑ k : Fin 128, x (ix2 p k) * w (ix2 k q) :=
  Cert.LibDense.matmul_zero_plain DProj none rfl rfl proj_l0 proj_l1 proj_r0 proj_r1 x w p q

/-- The stripe's row sums: entry `p`. -/
theorem rowsum_apply (a : FVec Ideal S200x10000 .f32) (hacc : (0x00000000#32 : BitVec 32) = 0x00000000#32) (p : Fin 200) :
    multiReduction .add [1] S200 a 0x00000000#32 Facts₀.reduces_S200x10000_S200 (.inl rfl) hacc (ix1 p) = ∑ j : Fin 10000, a (ix2 p j) := by
  refine (Ideal.multiReduction_add_single a 0x00000000#32 Facts₀.reduces_S200x10000_S200 (.inl rfl) hacc (ix1 p)).trans ?_
  refine Finset.sum_congr rfl fun j _ => congrArg a (funext fun d => Fin.ext ?_)
  match d with
  | ⟨0, _⟩ => rfl
  | ⟨1, _⟩ => rfl

/-- The reciprocal of the row sum plus one, kept as a column and broadcast along the row: entry `(p, k)`. -/
theorem scale_apply (a : FVec Ideal S200x10000 .f32) (hacc : (0x00000000#32 : BitVec 32) = 0x00000000#32) (p : Fin 200) (k : Fin 128) :
    broadcastTo S200x128 (divf (broadcast S200x1 (Scalar.ofBits (F := Ideal) .f32 0x3F800000#32))
        (addf (shapeCast S200x1 (multiReduction .add [1] S200 a 0x00000000#32 Facts₀.reduces_S200x10000_S200 (.inl rfl) hacc) Facts₀.shapeCasts_S200_S200x1)
          (broadcast S200x1 (Scalar.ofBits (F := Ideal) .f32 0x3F800000#32)))) Facts₀.broadcasts_S200x1_S200x128 (ix2 p k)
      = Ideal.div (Ideal.ofBits .f32 0x3F800000#32) ((∑ j : Fin 10000, a (ix2 p j)) + Ideal.ofBits .f32 0x3F800000#32) := by
  refine (Cert.LibKeepdims.broadcastTo_a1_ab_apply _ Facts₀.broadcasts_S200x1_S200x128 p k).trans ?_
  show Ideal.div _ (shapeCast S200x1 _ Facts₀.shapeCasts_S200_S200x1 (ix2 p (0 : Fin 1)) + _) = _
  rw [Cert.LibKeepdims.shapeCast_a_a1_apply _ Facts₀.shapeCasts_S200_S200x1 p 0, rowsum_apply a hacc p]
  rfl

/-- The value stored for one stripe, at `(p, q)`, as named by the first half of the body. -/
theorem top_apply (v0 : Vec Ideal S10000x128 .f32) (w1 w2 : Vec Ideal S128x128 .f32) (a : Vec Ideal S200x10000 .f32) (f : Vec Ideal S200x128 .f32)
    (p : Fin 200) (q : Fin 128) :
    k0_pay4 (F := Ideal) v0 w1 w2 a f (ix2 p q)
      = (∑ k : Fin 128, f (ix2 p k) * w1 (ix2 k q))
        + ∑ k : Fin 128, ((∑ j : Fin 10000, a (ix2 p j) * v0 (ix2 j k))
            * Ideal.div (Ideal.ofBits .f32 0x3F800000#32) ((∑ j : Fin 10000, a (ix2 p j)) + Ideal.ofBits .f32 0x3F800000#32)) * w2 (ix2 k q) := by
  unfold k0_pay4 k0_pay2 k0_pay3
  refine congrArg₂ (· + ·) ?_ ?_
  · refine (projProd_apply _ _ p q).trans (Finset.sum_congr rfl fun k _ => ?_)
    rw [shapeCast_self]
  · refine (projProd_apply _ _ p q).trans (Finset.sum_congr rfl fun k _ => ?_)
    rw [shapeCast_self]
    refine congrArg (· * w2 (ix2 k q)) ?_
    exact congrArg₂ (· * ·) (aggProd_apply a v0 p k) (scale_apply a rfl p k)

/-- The same value, as named by the second half of the body. -/
theorem bot_apply (v0 : Vec Ideal S10000x128 .f32) (w1 w2 : Vec Ideal S128x128 .f32) (a : Vec Ideal S200x10000 .f32) (f : Vec Ideal S200x128 .f32)
    (p : Fin 200) (q : Fin 128) :
    k0_pay1 (F := Ideal) (k0_pay3 w2) (k0_pay5 v0 a) (k0_pay6 w1 f) (k0_pay7 a) (ix2 p q)
      = (∑ k : Fin 128, f (ix2 p k) * w1 (ix2 k q))
        + ∑ k : Fin 128, ((∑ j : Fin 10000, a (ix2 p j) * v0 (ix2 j k))
            * Ideal.div (Ideal.ofBits .f32 0x3F800000#32) ((∑ j : Fin 10000, a (ix2 p j)) + Ideal.ofBits .f32 0x3F800000#32)) * w2 (ix2 k q) := by
  unfold k0_pay1 k0_pay3 k0_pay5 k0_pay6 k0_pay7 k0_pay2
  refine congrArg₂ (· + ·) ?_ ?_
  · refine (projProd_apply _ _ p q).trans (Finset.sum_congr rfl fun k _ => ?_)
    rw [shapeCast_self]
  · refine (projProd_apply _ _ p q).trans (Finset.sum_congr rfl fun k _ => ?_)
    rw [shapeCast_self]
    refine congrArg (· * w2 (ix2 k q)) ?_
    exact congrArg₂ (· * ·) (aggProd_apply a v0 p k) (scale_apply a rfl p k)

end Cert.KernelIdeal.Pay

end
-- ==== Proof.SageSpec.lean ====
/-
  The layer both programs compute, as one function of the arrays, entry by entry, on the extended reals.

  For a node `r`: `rowsum r` is the sum of row `r` of the adjacency matrix, `agg r k` the `k`-th feature summed over
  the neighbours with the adjacency weights, `scale r = 1 / (rowsum r + 1)`. The output entry `(r, o)` is the node's own
  features against the first weight block plus its scaled aggregate against the second:
    out r o = ∑ k, feat r k · W₁ k o  +  ∑ k, (agg r k · scale r) · W₂ k o.
  The two weight blocks are passed as their own arrays (the column halves of the weight matrix, transposed).
-/
import Idealize.ShloMosaic.Lib.ValueIdx
import Idealize.ShloMosaic.PureOps.Ideal.Laws

noncomputable section

namespace Cert.Sage

open Idealize.ShloMosaic Idealize.ShloMosaic.ValueIdx

abbrev SFeat : Shape := ⟨2, ![10000, 128]⟩
abbrev SAdj : Shape := ⟨2, ![10000, 10000]⟩
abbrev SBlk : Shape := ⟨2, ![128, 128]⟩

/-- The float one, as the extended real its word denotes. -/
abbrev one : EReal := Ideal.ofBits .f32 0x3F800000#32

/-- The sum of row `r` of the adjacency matrix. -/
def rowsum (adj : SAdj.Idx → EReal) (r : Fin 10000) : EReal := ∑ j : Fin 10000, adj (ix2 r j)

/-- Feature `k` aggregated over the neighbours of node `r`. -/
def agg (adj : SAdj.Idx → EReal) (feat : SFeat.Idx → EReal) (r : Fin 10000) (k : Fin 128) : EReal :=
  ∑ j : Fin 10000, adj (ix2 r j) * feat (ix2 j k)

/-- The reciprocal of the row sum plus one. -/
def scale (adj : SAdj.Idx → EReal) (r : Fin 10000) : EReal := Ideal.div one (rowsum adj r + one)

/-- The output entry of node `r`, output feature `o`. -/
def entry (feat : SFeat.Idx → EReal) (adj : SAdj.Idx → EReal) (W1 W2 : SBlk.Idx → EReal) (r : Fin 10000) (o : Fin 128) : EReal :=
  (∑ k : Fin 128, feat (ix2 r k) * W1 (ix2 k o)) + ∑ k : Fin 128, (agg adj feat r k * scale adj r) * W2 (ix2 k o)

/-- The whole output array. -/
def out (feat : SFeat.Idx → EReal) (adj : SAdj.Idx → EReal) (W1 W2 : SBlk.Idx → EReal) : SFeat.Idx → EReal :=
  fun i => entry feat adj W1 W2 (i 0) (i 1)

end Cert.Sage

end
-- ==== Proof.KernelBlocks.lean ====
/-
  From blocks to the array, for the idealized kernel. Grid point `t` handles the 400 nodes `400 t … 400 t + 399`: its
  feature block is those rows, its two adjacency stripes are rows `400 t … 400 t + 199` and `400 t + 200 … 400 t + 399`,
  and the feature matrix and the two weight blocks are whole. So each of the body's two stores holds, at `(p, q)`, the
  layer's entry for node `400 t + p` (top) or `400 t + 200 + p` (bottom): the block written back at `t` is block `t`
  of the layer's output, the 25 blocks cover the 10000 nodes, and the output array ends as the layer's output of the
  arrays the region found.
-/
import proofs.«174640_g81527069213077_cont_9to1c4b_579_20_alg».proof.Proof.FrameRunI
import proofs.«174640_g81527069213077_cont_9to1c4b_579_20_alg».proof.Proof.PayloadValue
import proofs.«174640_g81527069213077_cont_9to1c4b_579_20_alg».proof.Proof.SageSpec
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr

variable (m : (ℓ : Loc nD τ sig) → Buf (Elt Ideal) ℓ) (ρ : Dev nD → PrngReg)

/-- The arrays the region finds, as functions of an index. -/
abbrev feat (c : Dev nD) : S10000x128.Idx → EReal := V m c main_arg0
abbrev adj (c : Dev nD) : S10000x10000.Idx → EReal := V m c main_arg1
abbrev w1 (c : Dev nD) : S128x128.Idx → EReal := V m c main_call0_v1
abbrev w2 (c : Dev nD) : S128x128.Idx → EReal := V m c main_call0_v3

/-- The layer's output of them. -/
abbrev G (c : Dev nD) : S10000x128.Idx → EReal := Cert.Sage.out (feat m c) (adj m c) (w1 m c) (w2 m c)

theorem tlt (t : Fin cfg0.N) : t.val < 25 := lt_of_lt_of_eq t.isLt N_0

/-- The node a top-half row `p` of point `t` stands for, and a bottom-half one. -/
def rowTop (t : Fin cfg0.N) (p : Fin 200) : Fin 10000 := ⟨400 * t.val + p.val, by have := tlt t; have := p.isLt; omega⟩
def rowBot (t : Fin cfg0.N) (p : Fin 200) : Fin 10000 := ⟨400 * t.val + 200 + p.val, by have := tlt t; have := p.isLt; omega⟩

/-- The printed index maps over the grid. -/
theorem idx_facts : ∀ t : Fin cfg0.N,
    win0_0.index t (0 : Fin 2) = t.val ∧ win0_0.index t (1 : Fin 2) = 0
    ∧ win0_1.index t (0 : Fin 2) = 2 * t.val ∧ win0_1.index t (1 : Fin 2) = 0
    ∧ win0_2.index t (0 : Fin 2) = 2 * t.val + 1 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## What the body's loads read -/

theorem ld_featTop (c : Dev nD) (t : Fin cfg0.N) (p : Fin 200) (k : Fin 128) :
    View.ld (iblk m c 0 t) rTop (ix2 p k) = feat m c (ix2 (rowTop t p) k) := by
  show feat m c (((cfg0.win 0).blk t).view.emb (rTop.idx (ix2 p k))) = _
  refine congrArg _ (funext fun d => Fin.ext ?_)
  obtain ⟨e0, e1, -⟩ := idx_facts t
  match d with
  | ⟨0, _⟩ => show win0_0.index t (0 : Fin 2) * 400 + 1 * (0 + 1 * p.val) = 400 * t.val + p.val; omega
  | ⟨1, _⟩ => show win0_0.index t (1 : Fin 2) * 128 + 1 * (0 + 1 * k.val) = k.val; omega

theorem ld_featBot (c : Dev nD) (t : Fin cfg0.N) (p : Fin 200) (k : Fin 128) :
    View.ld (iblk m c 0 t) rBot (ix2 p k) = feat m c (ix2 (rowBot t p) k) := by
  show feat m c (((cfg0.win 0).blk t).view.emb (rBot.idx (ix2 p k))) = _
  refine congrArg _ (funext fun d => Fin.ext ?_)
  obtain ⟨e0, e1, -⟩ := idx_facts t
  match d with
  | ⟨0, _⟩ => show win0_0.index t (0 : Fin 2) * 400 + 1 * (200 + 1 * p.val) = 400 * t.val + 200 + p.val; omega
  | ⟨1, _⟩ => show win0_0.index t (1 : Fin 2) * 128 + 1 * (0 + 1 * k.val) = k.val; omega

theorem ld_adjTop (c : Dev nD) (t : Fin cfg0.N) (p : Fin 200) (j : Fin 10000) :
    View.ld (iblk m c 1 t) rAdj (ix2 p j) = adj m c (ix2 (rowTop t p) j) := by
  show adj m c (((cfg0.win 1).blk t).view.emb (rAdj.idx (ix2 p j))) = _
  refine congrArg _ (funext fun d => Fin.ext ?_)
  obtain ⟨-, -, e0, e1, -⟩ := idx_facts t
  match d with
  | ⟨0, _⟩ => show win0_1.index t (0 : Fin 2) * 200 + 1 * (0 + 1 * p.val) = 400 * t.val + p.val; omega
  | ⟨1, _⟩ => show win0_1.index t (1 : Fin 2) * 10000 + 1 * (0 + 1 * j.val) = j.val; omega

theorem ld_adjBot (c : Dev nD) (t : Fin cfg0.N) (p : Fin 200) (j : Fin 10000) :
    View.ld (iblk m c 2 t) rAdj (ix2 p j) = adj m c (ix2 (rowBot t p) j) := by
  show adj m c (((cfg0.win 2).blk t).view.emb (rAdj.idx (ix2 p j))) = _
  refine congrArg _ (funext fun d => Fin.ext ?_)
  obtain ⟨-, -, -, -, e0, e1, -⟩ := idx_facts t
  match d with
  | ⟨0, _⟩ => show win0_2.index t (0 : Fin 2) * 200 + 1 * (0 + 1 * p.val) = 400 * t.val + 200 + p.val; omega
  | ⟨1, _⟩ => show win0_2.index t (1 : Fin 2) * 10000 + 1 * (0 + 1 * j.val) = j.val; omega

theorem ld_featAll (c : Dev nD) (t : Fin cfg0.N) (j : Fin 10000) (k : Fin 128) :
    View.ld (iblk m c 3 t) rFeat (ix2 j k) = feat m c (ix2 j k) := by
  show feat m c (((cfg0.win 3).blk t).view.emb (rFeat.idx (ix2 j k))) = _
  refine congrArg _ (funext fun d => Fin.ext ?_)
  obtain ⟨-, -, -, -, -, -, e0, e1, -⟩ := idx_facts t
  match d with
  | ⟨0, _⟩ => show win0_3.index t (0 : Fin 2) * 10000 + 1 * (0 + 1 * j.val) = j.val; omega
  | ⟨1, _⟩ => show win0_3.index t (1 : Fin 2) * 128 + 1 * (0 + 1 * k.val) = k.val; omega

theorem ld_w1 (c : Dev nD) (t : Fin cfg0.N) (k q : Fin 128) :
    View.ld (iblk m c 4 t) rW (ix2 k q) = w1 m c (ix2 k q) := by
  show w1 m c (((cfg0.win 4).blk t).view.emb (rW.idx (ix2 k q))) = _
  refine congrArg _ (funext fun d => Fin.ext ?_)
  obtain ⟨-, -, -, -, -, -, -, -, e0, e1, -⟩ := idx_facts t
  match d with
  | ⟨0, _⟩ => show win0_4.index t (0 : Fin 2) * 128 + 1 * (0 + 1 * k.val) = k.val; omega
  | ⟨1, _⟩ => show win0_4.index t (1 : Fin 2) * 128 + 1 * (0 + 1 * q.val) = q.val; omega

theorem ld_w2 (c : Dev nD) (t : Fin cfg0.N) (k q : Fin 128) :
    View.ld (iblk m c 5 t) rW (ix2 k q) = w2 m c (ix2 k q) := by
  show w2 m c (((cfg0.win 5).blk t).view.emb (rW.idx (ix2 k q))) = _
  refine congrArg _ (funext fun d => Fin.ext ?_)
  obtain ⟨-, -, -, -, -, -, -, -, -, -, e0, e1, -⟩ := idx_facts t
  match d with
  | ⟨0, _⟩ => show win0_5.index t (0 : Fin 2) * 128 + 1 * (0 + 1 * k.val) = k.val; omega
  | ⟨1, _⟩ => show win0_5.index t (1 : Fin 2) * 128 + 1 * (0 + 1 * q.val) = q.val; omega

/-! ## What the body's stores hold -/

/-- Where a top-half position of point `t`'s output block lies in the output array, and a bottom-half one. -/
theorem emb_top (t : Fin cfg0.N) (p : Fin 200) (q : Fin 128) :
    ((cfg0.win 6).blk t).view.emb (rTop.emb (ix2 p q)) = ix2 (rowTop t p) q := by
  refine funext fun d => Fin.ext ?_
  obtain ⟨-, -, -, -, -, -, -, -, -, -, -, -, e0, e1⟩ := idx_facts t
  match d with
  | ⟨0, _⟩ => show win0_6.index t (0 : Fin 2) * 400 + 1 * (0 + 1 * p.val) = 400 * t.val + p.val; omega
  | ⟨1, _⟩ => show win0_6.index t (1 : Fin 2) * 128 + 1 * (0 + 1 * q.val) = q.val; omega

theorem emb_bot (t : Fin cfg0.N) (p : Fin 200) (q : Fin 128) :
    ((cfg0.win 6).blk t).view.emb (rBot.emb (ix2 p q)) = ix2 (rowBot t p) q := by
  refine funext fun d => Fin.ext ?_
  obtain ⟨-, -, -, -, -, -, -, -, -, -, -, -, e0, e1⟩ := idx_facts t
  match d with
  | ⟨0, _⟩ => show win0_6.index t (0 : Fin 2) * 400 + 1 * (200 + 1 * p.val) = 400 * t.val + 200 + p.val; omega
  | ⟨1, _⟩ => show win0_6.index t (1 : Fin 2) * 128 + 1 * (0 + 1 * q.val) = q.val; omega

/-- The top store at `(p, q)` is the layer's entry of node `400 t + p`. -/
theorem top_eq (c : Dev nD) (t : Fin cfg0.N) (p : Fin 200) (q : Fin 128) :
    topPay (iblk m c 0 t) (iblk m c 1 t) (iblk m c 3 t) (iblk m c 4 t) (iblk m c 5 t) (ix2 p q)
      = Cert.Sage.entry (feat m c) (adj m c) (w1 m c) (w2 m c) (rowTop t p) q := by
  unfold topPay
  refine (Cert.KernelIdeal.Pay.top_apply _ _ _ _ _ p q).trans ?_
  unfold Cert.Sage.entry Cert.Sage.agg Cert.Sage.scale Cert.Sage.rowsum
  refine congrArg₂ (· + ·) (Finset.sum_congr rfl fun k _ => congrArg₂ (· * ·) (ld_featTop m c t p k) (ld_w1 m c t k q))
    (Finset.sum_congr rfl fun k _ => congrArg₂ (· * ·) (congrArg₂ (· * ·)
      (Finset.sum_congr rfl fun j _ => congrArg₂ (· * ·) (ld_adjTop m c t p j) (ld_featAll m c t j k))
      (congrArg (Ideal.div _ ·) (congrArg (· + _) (Finset.sum_congr rfl fun j _ => ld_adjTop m c t p j)))) (ld_w2 m c t k q))

/-- The bottom store at `(p, q)` is the layer's entry of node `400 t + 200 + p`. -/
theorem bot_eq (c : Dev nD) (t : Fin cfg0.N) (p : Fin 200) (q : Fin 128) :
    botPay (iblk m c 0 t) (iblk m c 2 t) (iblk m c 3 t) (iblk m c 4 t) (iblk m c 5 t) (ix2 p q)
      = Cert.Sage.entry (feat m c) (adj m c) (w1 m c) (w2 m c) (rowBot t p) q := by
  unfold botPay
  refine (Cert.KernelIdeal.Pay.bot_apply _ _ _ _ _ p q).trans ?_
  unfold Cert.Sage.entry Cert.Sage.agg Cert.Sage.scale Cert.Sage.rowsum
  refine congrArg₂ (· + ·) (Finset.sum_congr rfl fun k _ => congrArg₂ (· * ·) (ld_featBot m c t p k) (ld_w1 m c t k q))
    (Finset.sum_congr rfl fun k _ => congrArg₂ (· * ·) (congrArg₂ (· * ·)
      (Finset.sum_congr rfl fun j _ => congrArg₂ (· * ·) (ld_adjBot m c t p j) (ld_featAll m c t j k))
      (congrArg (Ideal.div _ ·) (congrArg (· + _) (Finset.sum_congr rfl fun j _ => ld_adjBot m c t p j)))) (ld_w2 m c t k q))

/-! ## The block written back, the cover, the array -/

/-- What point `t` writes back is block `t` of the layer's output. -/
theorem flushed6_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  funext y
  show View.canon ([⟨rBot, botPay (iblk m c 0 t) (iblk m c 2 t) (iblk m c 3 t) (iblk m c 4 t) (iblk m c 5 t)⟩,
      ⟨rTop, topPay (iblk m c 0 t) (iblk m c 1 t) (iblk m c 3 t) (iblk m c 4 t) (iblk m c 5 t)⟩] : List (View.Piece (Elt Ideal) S400x128 .f32)) y
    = G m c (((cfg0.win 6).blk t).view.emb y)
  refine View.canon_apply_of_pieces (Val := Elt Ideal) (S := S400x128) (e := .f32) (fun y => G m c (((cfg0.win 6).blk t).view.emb y)) _ ?_ y (cover0_6 _ _ y)
  intro pc hpc x
  simp only [List.mem_cons, List.mem_singleton, List.not_mem_nil, or_false] at hpc
  rcases hpc with rfl | rfl
  · obtain ⟨p, q, rfl⟩ : ∃ (p : Fin 200) (q : Fin 128), x = ix2 p q := ⟨x 0, x 1, eq_ix2 x⟩
    show botPay (F := Ideal) (iblk m c 0 t) (iblk m c 2 t) (iblk m c 3 t) (iblk m c 4 t) (iblk m c 5 t) (ix2 p q) = G m c (((cfg0.win 6).blk t).view.emb (rBot.emb (ix2 p q)))
    rw [emb_bot]
    exact bot_eq m c t p q
  · obtain ⟨p, q, rfl⟩ : ∃ (p : Fin 200) (q : Fin 128), x = ix2 p q := ⟨x 0, x 1, eq_ix2 x⟩
    show topPay (F := Ideal) (iblk m c 0 t) (iblk m c 1 t) (iblk m c 3 t) (iblk m c 4 t) (iblk m c 5 t) (ix2 p q) = G m c (((cfg0.win 6).blk t).view.emb (rTop.emb (ix2 p q)))
    rw [emb_top]
    exact top_eq m c t p q

/-- An index of the output array is in point `t`'s block iff each coordinate is in the block's range on its axis. -/
theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v0).slice (win0_6.rect t)).set ↔ _
  rw [View.set_slice_whole, Rect.mem_set_unit]
  exact Iff.rfl

/-- Every node's row is in the block of the point that handles it. -/
theorem cover6 (c : Dev nD) (i : ((cfg0.win 6).arr.view.loc (c.tc : Thread nD τ)).2.ty.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 25 := N_0
  have ht : (i 0).val / 400 < cfg0.N := by rw [hN]; omega
  refine ⟨⟨(i 0).val / 400, ht⟩, flush0_6 _, ?_⟩
  rw [mem_blk6]
  obtain ⟨-, -, -, -, -, -, -, -, -, -, -, -, e0, e1⟩ := idx_facts ⟨(i 0).val / 400, ht⟩
  intro a
  match a with
  | ⟨0, _⟩ =>
    show win0_6.index ⟨(i 0).val / 400, ht⟩ (0 : Fin 2) * 400 ≤ (i 0).val ∧ (i 0).val < win0_6.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_6.index ⟨(i 0).val / 400, ht⟩ (1 : Fin 2) * 128 ≤ (i 1).val ∧ (i 1).val < win0_6.index ⟨(i 0).val / 400, ht⟩ (1 : Fin 2) * 128 + 128
    rw [e1]; omega

/-- The output array after the run: the layer's output of the arrays the region found. -/
theorem final6 (c : Dev nD) : (dats m 0 c).arrAt 6 cfg0.N = G m c :=
  (dats m 0 c).arrAt_eq_of_cover 6 (G m c) (fun t _ => flushed6_eq m c t) (cover6 c)

/-- The run, with the result named. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 6).trans (final6 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (V_main_arg2 m c)⟩) (run_main m ρ)

end Cert.KernelIdeal.Val

end
-- ==== Proof.WeightBlocks.lean ====
/-
  The two weight blocks the region finds. Before the region the host cuts the weight matrix `W` (128 × 256) into its two
  column halves and transposes each: block one at `(k, o)` is `W o k`, block two is `W o (128 + k)`.
-/
import proofs.«174640_g81527069213077_cont_9to1c4b_579_20_alg».proof.Proof.FrameEntryI
import Idealize.ShloMosaic.Lib.Pipeline.Value
import Idealize.ShloMosaic.Lib.ValueIdx
import Idealize.ShloMosaic.Lib.StableHlo.Run

set_option maxRecDepth 16384

noncomputable section

namespace Cert.KernelIdeal.Val

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Fr

variable (m : (ℓ : Loc nD τ sig) → Buf (Elt Ideal) ℓ)

theorem blockOne_eq (c : Dev nD) : (V m c main_call0_v1 : S128x128.Idx → EReal)
    = transpose S128x128 [1, 0] (extractStridedSlice S128x128 ![0, 0] (m ((c.tc : Thread nD τ).loc main_arg2)) slices_S128x256_S128x128_0_0) transposes_S128x128_S128x128_1_0 := by
  dsimp only [V, hostOps0]; after_results; rfl

theorem blockTwo_eq (c : Dev nD) : (V m c main_call0_v3 : S128x128.Idx → EReal)
    = transpose S128x128 [1, 0] (extractStridedSlice S128x128 ![0, 128] (m ((c.tc : Thread nD τ).loc main_arg2)) slices_S128x256_S128x128_0_128) transposes_S128x128_S128x128_1_0 := by
  dsimp only [V, hostOps0]; after_results; rfl

/-- Block one at `(k, o)` is the weight matrix at `(o, k)`. -/
theorem blockOne_apply (c : Dev nD) (k o : Fin 128) :
    (V m c main_call0_v1 : S128x128.Idx → EReal) (ix2 k o) = (m ((c.tc : Thread nD τ).loc main_arg2) : S128x256.Idx → EReal) (ix2 o (Fin.castAdd 128 k)) := by
  rw [blockOne_eq]
  refine (transpose_apply [1, 0] _ transposes_S128x128_S128x128_1_0 (ix2 k o) (ix2 o k) fun b => ?_).trans ?_
  · match b with
    | ⟨0, _⟩ => rfl
    | ⟨1, _⟩ => rfl
  · refine extractStridedSlice_apply ![0, 0] _ slices_S128x256_S128x128_0_0 (ix2 o k) (ix2 o (Fin.castAdd 128 k)) fun a => ?_
    match a with
    | ⟨0, _⟩ => show o.val = 0 + o.val; omega
    | ⟨1, _⟩ => show k.val = 0 + k.val; omega

/-- Block two at `(k, o)` is the weight matrix at `(o, 128 + k)`. -/
theorem blockTwo_apply (c : Dev nD) (k o : Fin 128) :
    (V m c main_call0_v3 : S128x128.Idx → EReal) (ix2 k o) = (m ((c.tc : Thread nD τ).loc main_arg2) : S128x256.Idx → EReal) (ix2 o (Fin.natAdd 128 k)) := by
  rw [blockTwo_eq]
  refine (transpose_apply [1, 0] _ transposes_S128x128_S128x128_1_0 (ix2 k o) (ix2 o k) fun b => ?_).trans ?_
  · match b with
    | ⟨0, _⟩ => rfl
    | ⟨1, _⟩ => rfl
  · refine extractStridedSlice_apply ![0, 128] _ slices_S128x256_S128x128_0_128 (ix2 o k) (ix2 o (Fin.natAdd 128 k)) fun a => ?_
    match a with
    | ⟨0, _⟩ => show o.val = 0 + o.val; omega
    | ⟨1, _⟩ => show 128 + k.val = 128 + k.val; rfl

end Cert.KernelIdeal.Val

end
-- ==== Proof.RefSide.lean ====
/-
  The reference, read at an entry. Its last product contracts the 256 columns of the concatenation [features | scaled
  aggregate] against the transposed weight matrix; split at column 128, the first 128 terms are the node's own features
  against the first 128 columns of the weight row, the last 128 the aggregate divided by the row sum plus one against
  the other 128 columns.
-/
import proofs.«174640_g81527069213077_cont_9to1c4b_579_20_alg».proof.Proof.Gen.ReferenceIdeal.Read
import proofs.«174640_g81527069213077_cont_9to1c4b_579_20_alg».proof.Proof.SageSpec
import Idealize.ShloMosaic.Lib.Pipeline.Value
import Idealize.ShloMosaic.Lib.ValueIdx
import Idealize.ShloMosaic.PureOps.Ideal.Laws

set_option maxRecDepth 16384

noncomputable section

namespace Cert.ReferenceIdeal.RefSide

open Idealize.ShloMosaic Idealize.ShloMosaic.ValueIdx Cert.ReferenceIdeal Cert.ReferenceIdeal.Gen Cert.ReferenceIdeal.Read

theorem lidx_agg (r : Fin 10000) (k : Fin 128) (j : Fin 10000) : lidx_main_v0 (ix2 r k) j = ix2 r j :=
  funext fun a => Fin.ext (by match a with | ⟨0, _⟩ => rfl | ⟨1, _⟩ => rfl)
theorem ridx_agg (r : Fin 10000) (k : Fin 128) (j : Fin 10000) : ridx_main_v0 (ix2 r k) j = ix2 j k :=
  funext fun a => Fin.ext (by match a with | ⟨0, _⟩ => rfl | ⟨1, _⟩ => rfl)
theorem idx_row (r : Fin 10000) (k : Fin 128) (j : Fin 10000) : idx_main_v1 (idx_main_v2 (idx_main_v5 (ix2 r k))) j = ix2 r j :=
  funext fun a => Fin.ext (by
    match a with
    | ⟨0, _⟩ => show r.val * 1 + 0 = r.val; omega
    | ⟨1, _⟩ => rfl)

/-- The scaled aggregate: entry `(r, k)`. -/
theorem scaledAgg_entry (x0 : (⟨S10000x128, .f32⟩ : BufTy).Contents (Elt Ideal)) (x1 : (⟨S10000x10000, .f32⟩ : BufTy).Contents (Elt Ideal))
    (r : Fin 10000) (k : Fin 128) :
    val_main_v6 (F := Ideal) x0 x1 (ix2 r k)
      = Ideal.div (Cert.Sage.agg x1 x0 r k) (Ideal.ofBits .f32 0x00000000#32 + Cert.Sage.rowsum x1 r + Ideal.ofBits .f32 0x3F800000#32) := by
  rw [val_main_v6_apply, val_main_v0_apply, val_main_v5_apply, val_main_v4_apply, val_main_v2_apply, val_main_v1_apply,
    val_main_v3_apply, val_main_cst_0_apply, val_main_cst_apply]
  simp only [lidx_agg, ridx_agg, idx_row, Ideal.hostDivf_def, Ideal.addf_def, Ideal.ofBits_def]
  rfl

/-- The weight matrix transposed: entry `(k, o)` of the transposed is entry `(o, k)`. -/
theorem wt_entry (x2 : (⟨S128x256, .f32⟩ : BufTy).Contents (Elt Ideal)) (r : Fin 10000) (o : Fin 128) (k : Fin 256) :
    val_main_v8 (F := Ideal) x2 (ridx_main_v9 (ix2 r o) k) = x2 (ix2 o k) := by
  rw [val_main_v8_apply]
  exact congrArg x2 (funext fun a => Fin.ext (by match a with | ⟨0, _⟩ => rfl | ⟨1, _⟩ => rfl))

/-- The concatenation's left half is the features. -/
theorem cat_left (x0 : (⟨S10000x128, .f32⟩ : BufTy).Contents (Elt Ideal)) (x1 : (⟨S10000x10000, .f32⟩ : BufTy).Contents (Elt Ideal))
    (r : Fin 10000) (o : Fin 128) (k : Fin 128) :
    val_main_v7 (F := Ideal) x0 x1 (lidx_main_v9 (ix2 r o) (Fin.castAdd 128 k)) = x0 (ix2 r k) := by
  unfold val_main_v7
  refine concatenate_pair_apply_left (t := S10000x256) (s₁ := S10000x128) (s₂ := S10000x128) (1 : Fin 2) x0 (val_main_v6 (F := Ideal) x0 x1)
    _ (lidx_main_v9 (ix2 r o) (Fin.castAdd 128 k)) rfl (ix2 r k) fun b => ?_
  match b with
  | ⟨0, _⟩ => rfl
  | ⟨1, _⟩ => rfl

/-- Its right half is the scaled aggregate. -/
theorem cat_right (x0 : (⟨S10000x128, .f32⟩ : BufTy).Contents (Elt Ideal)) (x1 : (⟨S10000x10000, .f32⟩ : BufTy).Contents (Elt Ideal))
    (r : Fin 10000) (o : Fin 128) (k : Fin 128) :
    val_main_v7 (F := Ideal) x0 x1 (lidx_main_v9 (ix2 r o) (Fin.natAdd 128 k)) = val_main_v6 (F := Ideal) x0 x1 (ix2 r k) := by
  unfold val_main_v7
  refine concatenate_pair_apply_right (t := S10000x256) (s₁ := S10000x128) (s₂ := S10000x128) (1 : Fin 2) x0 (val_main_v6 (F := Ideal) x0 x1)
    _ (lidx_main_v9 (ix2 r o) (Fin.natAdd 128 k)) rfl rfl (ix2 r k) (fun b hb => ?_) ?_
  · match b with
    | ⟨0, _⟩ => rfl
    | ⟨1, _⟩ => exact absurd rfl hb
  · show k.val + 128 = 128 + k.val
    omega

/-- The reference's result at `(r, o)`. -/
theorem result_entry (x0 : (⟨S10000x128, .f32⟩ : BufTy).Contents (Elt Ideal)) (x1 : (⟨S10000x10000, .f32⟩ : BufTy).Contents (Elt Ideal))
    (x2 : (⟨S128x256, .f32⟩ : BufTy).Contents (Elt Ideal)) (r : Fin 10000) (o : Fin 128) :
    val_main_v9 (F := Ideal) x0 x1 x2 (ix2 r o)
      = (∑ k : Fin 128, x0 (ix2 r k) * x2 (ix2 o (Fin.castAdd 128 k)))
        + ∑ k : Fin 128, Ideal.div (Cert.Sage.agg x1 x0 r k) (Ideal.ofBits .f32 0x00000000#32 + Cert.Sage.rowsum x1 r + Ideal.ofBits .f32 0x3F800000#32)
            * x2 (ix2 o (Fin.natAdd 128 k)) := by
  rw [val_main_v9_apply]
  refine (Fin.sum_univ_add (fun k : Fin (128 + 128) =>
    val_main_v7 (F := Ideal) x0 x1 (lidx_main_v9 (ix2 r o) k) * val_main_v8 (F := Ideal) x2 (ridx_main_v9 (ix2 r o) k))).trans ?_
  refine congrArg₂ (· + ·) (Finset.sum_congr rfl fun k _ => ?_) (Finset.sum_congr rfl fun k _ => ?_)
  · rw [cat_left, wt_entry]
  · rw [cat_right, wt_entry, scaledAgg_entry]

end Cert.ReferenceIdeal.RefSide

end
-- ==== Proof.LibExtReal.lean ====
/-
  Small general facts about float values read as extended reals.

  The words of the float one and of plus infinity denote `1` and `⊤`. A quotient by a nonzero REAL divisor is the
  product with one over the divisor, whatever the dividend (infinities included); at a zero divisor the two differ
  (`0 / 0` against `0 · (1 / 0)`), so the hypothesis is needed. A finite sum of reals read in the extended reals is the
  sum of the readings. An extended real whose absolute value `max x (-x)` is below `⊤` is a real. A comparison word
  that is one says its relation holds (less-than; not-equal).
-/
import Idealize.ShloMosaic.PureOps.Ideal.Laws

noncomputable section

namespace Cert.LibExtReal

open Idealize.ShloMosaic

/-- The word of the float one denotes the real one. -/
theorem ofBits_one : Ideal.ofBits .f32 0x3F800000#32 = 1 := by
  simp [Ideal.ofBits, Ideal.ieee, -EReal.coe_mul]; norm_num

/-- The word of plus infinity denotes the top element. -/
theorem ofBits_inf : Ideal.ofBits .f32 0x7F800000#32 = ⊤ := by simp [Ideal.ofBits, Ideal.ieee]

/-- A quotient by a nonzero real is the product with one over it. -/
theorem div_eq_mul_recip (a d : EReal) (y : ℝ) (hy : y ≠ 0) (hd : d = (y : EReal)) :
    Ideal.div a d = a * Ideal.div (Ideal.ofBits .f32 0x3F800000#32) d := by
  subst hd
  rw [Ideal.div_coe hy, Ideal.div_coe hy, ofBits_one, one_mul]

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below the top element is a real. -/
theorem real_of_abs_lt_top (x : EReal) (h : max x (-x) < ⊤) : ∃ y : ℝ, x = (y : EReal) := by
  induction x using EReal.rec with
  | bot => simp at h
  | coe y => exact ⟨y, rfl⟩
  | top => simp at h

/-- A less-than comparison word that is one: the left value is below the right. -/
theorem lt_of_cmp_olt {x y : EReal} (h : Ideal.cmp .olt x y = 1#1) : x < y := by
  unfold Ideal.cmp at h
  by_contra hn
  simp [hn] at h

/-- A not-equal comparison word that is one: the two values differ. -/
theorem ne_of_cmp_une {x y : EReal} (h : Ideal.cmp .une x y = 1#1) : x ≠ y := by
  unfold Ideal.cmp at h
  intro hn
  simp [hn] at h

end Cert.LibExtReal

end
-- ==== Proof.SageLaw.lean ====
/-
  The one law that joins the two programs: dividing by a nonzero real is multiplying by its reciprocal. The
  reference divides the aggregate by the row sum plus one; the kernel multiplies it by one over that. On the extended
  reals the two agree whenever the divisor is a nonzero real — whatever the dividend, infinities included — and
  differ at a zero divisor (0/0 against 0 · (1/0)), which the precondition excludes.
-/
import proofs.«174640_g81527069213077_cont_9to1c4b_579_20_alg».proof.Proof.SageSpec
import proofs.«174640_g81527069213077_cont_9to1c4b_579_20_alg».proof.Proof.LibExtReal

noncomputable section

namespace Cert.Sage

open Idealize.ShloMosaic

/-- The word of the float one denotes the real one. -/
theorem one_eq : one = 1 := Cert.LibExtReal.ofBits_one

/-- A quotient by a nonzero real is the product with one over it. -/
theorem div_eq_mul_recip (a d : EReal) (y : ℝ) (hy : y ≠ 0) (hd : d = (y : EReal)) : Ideal.div a d = a * Ideal.div one d :=
  Cert.LibExtReal.div_eq_mul_recip a d y hy hd

/-- A finite sum of reals, read in the extended reals, is the sum of the readings. -/
theorem coe_sum {ι : Type} (s : Finset ι) (f : ι → ℝ) : ((∑ i ∈ s, f i : ℝ) : EReal) = ∑ i ∈ s, (f i : EReal) :=
  Cert.LibExtReal.coe_sum s f

/-- The reference's entry is the layer's entry, when the node's row sum plus one is a nonzero real: the weight blocks
    are the column halves of the weight matrix transposed (`hW1`, `hW2`), and the reference's divisor carries the zero
    the host sum starts from. -/
theorem ref_entry_eq (feat : SFeat.Idx → EReal) (adj : SAdj.Idx → EReal) (W1 W2 : SBlk.Idx → EReal)
    (Wl Wr : Fin 128 → Fin 128 → EReal) (hW1 : ∀ k o, W1 (ValueIdx.ix2 k o) = Wl o k) (hW2 : ∀ k o, W2 (ValueIdx.ix2 k o) = Wr o k)
    (r : Fin 10000) (o : Fin 128) (y : ℝ) (hy : y ≠ 0) (hd : rowsum adj r + one = (y : EReal)) :
    (∑ k : Fin 128, feat (ValueIdx.ix2 r k) * Wl o k)
        + ∑ k : Fin 128, Ideal.div (agg adj feat r k) (Ideal.ofBits .f32 0x00000000#32 + rowsum adj r + one) * Wr o k
      = entry feat adj W1 W2 r o := by
  unfold entry scale
  rw [Ideal.ofBits_zero_f32, zero_add]
  refine congrArg₂ (· + ·) (Finset.sum_congr rfl fun k _ => by rw [hW1]) (Finset.sum_congr rfl fun k _ => ?_)
  rw [hW2, div_eq_mul_recip _ _ y hy hd]

end Cert.Sage

end
-- ==== Proof.PreDecode.lean ====
/-
  What the precondition gives the proof. It is the conjunction of four tests; two are used: every entry of the
  adjacency matrix is finite in absolute value, hence a real number; and no row sum plus one is zero. Together: for
  every node the divisor `rowsum + 1` is a nonzero real.
-/
import proofs.«174640_g81527069213077_cont_9to1c4b_579_20_alg».proof.Pre_finite_inputs
import proofs.«174640_g81527069213077_cont_9to1c4b_579_20_alg».proof.Proof.SageLaw
import Idealize.ShloMosaic.Lib.ReduceAll
import Idealize.ShloMosaic.Lib.ValueIdx
import Idealize.ShloMosaic.Lib.Affine
import Idealize.ShloMosaic.Lib.Pipeline.Value
import Idealize.ShloMosaic.PureOps.Ideal.Laws

noncomputable section

namespace Cert.Pre_finite_inputs.Decode

open Idealize.ShloMosaic Idealize.ShloMosaic.ValueIdx Cert.Pre_finite_inputs

variable [Cert.Pre_finite_inputs.Facts]

instance : Subsingleton S_.Idx := ⟨fun a b => funext fun d => d.elim0⟩

open Cert.LibExtReal (ofBits_inf real_of_abs_lt_top lt_of_cmp_olt ne_of_cmp_une)

/-- Under the precondition every adjacency entry is a real and no row sum plus one is zero. -/
theorem adj_facts (x0 : FVec Ideal S10000x128 .f32) (x1 : FVec Ideal S10000x10000 .f32) (x2 : FVec Ideal S128x256 .f32)
    (h : fn (F := Ideal) x0 x1 x2 = fun _ => 1#1) :
    (∀ i : S10000x10000.Idx, ∃ y : ℝ, x1 i = (y : EReal))
      ∧ ∀ r : Fin 10000, Ideal.ofBits .f32 0x00000000#32 + (∑ j : Fin 10000, x1 (ix2 r j)) + Ideal.ofBits .f32 0x3F800000#32 ≠ Ideal.ofBits .f32 0x00000000#32 := by
  have h0 := congrFun h ix0
  dsimp only [fn, fn_part1] at h0
  obtain ⟨h13, h19⟩ := IntOp.andi_eq_one.mp h0
  obtain ⟨h8, -⟩ := IntOp.andi_eq_one.mp h13
  obtain ⟨-, h7⟩ := IntOp.andi_eq_one.mp h8
  have e7 := fun i => Host.reduce_andi_all _ _ _ _ ix0 h7 i
  have e19 := fun i => Host.reduce_andi_all _ _ _ _ ix0 h19 i
  refine ⟨fun i => ?_, fun r => ?_⟩
  · have hi := e7 i
    have hb : broadcastInDim S10000x10000 ![] Facts.bcast_S_S10000x10000 (constant (F := Ideal) S_ .f32 0x7F800000#32) i = Ideal.ofBits .f32 0x7F800000#32 :=
      broadcastInDim_apply _ Facts.bcast_S_S10000x10000 _ i (fun a => a.elim0) (fun a => a.elim0)
    have hlt : max (x1 i) (-(x1 i)) < ⊤ := by
      have := lt_of_cmp_olt (x := max (x1 i) (-(x1 i))) (y := broadcastInDim S10000x10000 ![] Facts.bcast_S_S10000x10000 (constant (F := Ideal) S_ .f32 0x7F800000#32) i) hi
      rwa [hb, ofBits_inf] at this
    exact real_of_abs_lt_top _ hlt
  · have hr := e19 (ix1 r)
    have hb0 : broadcastInDim S10000 ![] Facts.bcast_S_S10000 (constant (F := Ideal) S_ .f32 0x00000000#32) (ix1 r) = Ideal.ofBits .f32 0x00000000#32 :=
      broadcastInDim_apply _ Facts.bcast_S_S10000 _ (ix1 r) (fun a => a.elim0) (fun a => a.elim0)
    have hb1 : broadcastInDim S10000 ![] Facts.bcast_S_S10000 (constant (F := Ideal) S_ .f32 0x3F800000#32) (ix1 r) = Ideal.ofBits .f32 0x3F800000#32 :=
      broadcastInDim_apply _ Facts.bcast_S_S10000 _ (ix1 r) (fun a => a.elim0) (fun a => a.elim0)
    have hsum : Host.reduceAdd x1 (constant (F := Ideal) S_ .f32 0x00000000#32) Facts.reducesTo_S10000x10000_S10000_d1 Facts.h_S_ (ix1 r)
        = Ideal.ofBits .f32 0x00000000#32 + ∑ j : Fin 10000, x1 (ix2 r j) := by
      simp only [Host.reduceAdd, Ideal.hostReduceAdd_def]
      rw [Ideal.hostReduceAdd_single Facts.reducesTo_S10000x10000_S10000_d1 (by decide)]
      refine congrArg₂ (· + ·) rfl (Finset.sum_congr rfl fun k _ => ?_)
      exact congrArg x1 (funext fun a => Fin.ext (by match a with | ⟨0, _⟩ => rfl | ⟨1, _⟩ => rfl))
    have hne := ne_of_cmp_une (x := Host.reduceAdd x1 (constant (F := Ideal) S_ .f32 0x00000000#32) Facts.reducesTo_S10000x10000_S10000_d1 Facts.h_S_ (ix1 r)
        + broadcastInDim S10000 ![] Facts.bcast_S_S10000 (constant (F := Ideal) S_ .f32 0x3F800000#32) (ix1 r))
      (y := broadcastInDim S10000 ![] Facts.bcast_S_S10000 (constant (F := Ideal) S_ .f32 0x00000000#32) (ix1 r)) hr
    rwa [hsum, hb0, hb1] at hne

/-- So for every node the row sum plus one is a nonzero real. -/
theorem denom_real (x0 : FVec Ideal S10000x128 .f32) (x1 : FVec Ideal S10000x10000 .f32) (x2 : FVec Ideal S128x256 .f32)
    (h : fn (F := Ideal) x0 x1 x2 = fun _ => 1#1) (r : Fin 10000) :
    ∃ y : ℝ, y ≠ 0 ∧ Cert.Sage.rowsum x1 r + Cert.Sage.one = (y : EReal) := by
  obtain ⟨hreal, hne⟩ := adj_facts x0 x1 x2 h
  choose f hf using hreal
  have hs : Cert.Sage.rowsum x1 r = ((∑ j : Fin 10000, f (ix2 r j) : ℝ) : EReal) := by
    unfold Cert.Sage.rowsum
    rw [Cert.Sage.coe_sum]
    exact Finset.sum_congr rfl fun j _ => hf _
  have hone : Cert.Sage.one = ((1 : ℝ) : EReal) := by rw [Cert.Sage.one_eq]; rfl
  refine ⟨(∑ j : Fin 10000, f (ix2 r j)) + 1, fun h0 => ?_, by rw [hs, hone, EReal.coe_add]⟩
  have hn := hne r
  rw [Ideal.ofBits_zero_f32, zero_add] at hn
  apply hn
  change Cert.Sage.rowsum x1 r + Cert.Sage.one = 0
  rw [hs, hone, ← EReal.coe_add, h0, EReal.coe_zero]

end Cert.Pre_finite_inputs.Decode

end
-- ==== Proof.Bridge.lean ====
/-
  The two programs compute one array. The idealized kernel ends with the layer's output of the arrays its region
  found; the reference ends with its own composed term of the same arguments. Entry by entry: the reference's last
  product splits at column 128 into the two sums of the layer's entry, the weight blocks the region found are the two
  column halves of the weight matrix transposed, and the reference's quotient by the row sum plus one is the kernel's
  product with its reciprocal because, under the precondition, that divisor is a nonzero real.
-/
import proofs.«174640_g81527069213077_cont_9to1c4b_579_20_alg».proof.Proof.KernelBlocks
import proofs.«174640_g81527069213077_cont_9to1c4b_579_20_alg».proof.Proof.WeightBlocks
import proofs.«174640_g81527069213077_cont_9to1c4b_579_20_alg».proof.Proof.RefSide
import proofs.«174640_g81527069213077_cont_9to1c4b_579_20_alg».proof.Proof.PreDecode
import proofs.«174640_g81527069213077_cont_9to1c4b_579_20_alg».proof.Proof.SageLaw

set_option maxRecDepth 16384

noncomputable section

namespace Cert.Bridge

open Idealize.ShloMosaic Idealize.ShloMosaic.TcCoe Idealize.ShloMosaic.ValueIdx
open Idealize.SL Idealize.SL.Sem

variable [Cert.Pre_finite_inputs.Facts]

/-- The reference's term of the kernel's launch arrays is the layer's output the kernel ends with. -/
theorem result_eq (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1) :
    Cert.ReferenceIdeal.Read.val_main_v9 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      = Cert.KernelIdeal.Val.G m c := by
  funext i
  obtain ⟨r, o, rfl⟩ : ∃ (r : Fin 10000) (o : Fin 128), i = ix2 r o := ⟨i 0, i 1, eq_ix2 i⟩
  rw [Cert.ReferenceIdeal.RefSide.result_entry]
  obtain ⟨y, hy, hd⟩ := Cert.Pre_finite_inputs.Decode.denom_real _ _ _ hpre r
  show _ = Cert.Sage.entry (Cert.KernelIdeal.Val.feat m c) (Cert.KernelIdeal.Val.adj m c) (Cert.KernelIdeal.Val.w1 m c) (Cert.KernelIdeal.Val.w2 m c) r o
  unfold Cert.KernelIdeal.Val.feat Cert.KernelIdeal.Val.adj
  rw [Cert.KernelIdeal.Fr.V_main_arg0, Cert.KernelIdeal.Fr.V_main_arg1]
  exact Cert.Sage.ref_entry_eq _ _ (Cert.KernelIdeal.Val.w1 m c) (Cert.KernelIdeal.Val.w2 m c)
    (fun o k => (m ((c.tc : Thread Cert.KernelIdeal.nD Cert.KernelIdeal.τ).loc Cert.KernelIdeal.main_arg2) : Cert.KernelIdeal.S128x256.Idx → EReal) (ix2 o (Fin.castAdd 128 k)))
    (fun o k => (m ((c.tc : Thread Cert.KernelIdeal.nD Cert.KernelIdeal.τ).loc Cert.KernelIdeal.main_arg2) : Cert.KernelIdeal.S128x256.Idx → EReal) (ix2 o (Fin.natAdd 128 k)))
    (fun k o => Cert.KernelIdeal.Val.blockOne_apply m c k o) (fun k o => Cert.KernelIdeal.Val.blockTwo_apply m c k o) r o y hy hd

end Cert.Bridge

end
-- ==== Proof.lean ====
/-
  The certificate of a GraphSAGE layer on a dense graph: for node features `X` (10000 × 128), adjacency weights `A`
  (10000 × 10000) and a weight matrix `W` (128 × 256),
      out = [ X | (A X) / (rowsum A + 1) ] Wᵀ.
  The kernel walks the nodes in 25 blocks of 400, reading each block's two 200-row stripes of `A` once: per stripe it
  forms the row sums and the product with `X` from the same rows, scales the product by `1 / (rowsum + 1)`, and adds
  the block's own features against the first 128 columns of `W` to the scaled aggregate against the last 128.
  The reference concatenates and multiplies once.

  The three frames: each program runs to the end without a fault and leaves its arguments as launched. The feature
  matrix and the adjacency matrix are each handed to the kernel through two input windows, so each is held as two half
  shares while the region runs. No operation of the kernel is rewritten for the idealized reading. On the extended reals
  the two results are equal entry by entry: a split of the 256-term sum at column 128, and `a / d = a · (1 / d)` for a
  nonzero real `d` — which is where the precondition's last conjunct, that no row sum plus one is zero, is used (at
  `d = 0` the two sides differ: `0 / 0` against `0 · (1 / 0)`).
-/
import proofs.«174640_g81527069213077_cont_9to1c4b_579_20_alg».proof.Defs
import proofs.«174640_g81527069213077_cont_9to1c4b_579_20_alg».proof.Proof.Gen.Kernel
import proofs.«174640_g81527069213077_cont_9to1c4b_579_20_alg».proof.Proof.Gen.KernelIdeal
import proofs.«174640_g81527069213077_cont_9to1c4b_579_20_alg».proof.Proof.Gen.ReferenceIdeal
import proofs.«174640_g81527069213077_cont_9to1c4b_579_20_alg».proof.Proof.Gen.Pre_finite_inputs
import proofs.«174640_g81527069213077_cont_9to1c4b_579_20_alg».proof.Proof.Gen.ReferenceIdeal.Run
import proofs.«174640_g81527069213077_cont_9to1c4b_579_20_alg».proof.Proof.Gen.ReferenceIdeal.Read
import proofs.«174640_g81527069213077_cont_9to1c4b_579_20_alg».proof.Proof.FrameRunK
import proofs.«174640_g81527069213077_cont_9to1c4b_579_20_alg».proof.Proof.FrameRunI
import proofs.«174640_g81527069213077_cont_9to1c4b_579_20_alg».proof.Proof.KernelBlocks
import proofs.«174640_g81527069213077_cont_9to1c4b_579_20_alg».proof.Proof.Bridge

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end at the layer's output of those arguments. -/
theorem algebraic : Cert.algebraic_KernelIdeal_ReferenceIdeal := by
  intro m ρ m' ρ' hpre hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2]
  exact Cert.Bridge.result_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
